-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x128 : Shape := ⟨2, ![8, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) (main_arg1 : IVec S8x128 32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  main_v3
-- ==== Kernel.lean ====
abbrev S8x4096x512 : Shape := ⟨3, ![8, 4096, 512]⟩
abbrev S8x128 : Shape := ⟨2, ![8, 128]⟩
abbrev S_ : Shape := ⟨0, ![]⟩
abbrev S8x128x1 : Shape := ⟨3, ![8, 128, 1]⟩
abbrev S8x128x512 : Shape := ⟨3, ![8, 128, 512]⟩
abbrev S1x4096x512 : Shape := ⟨3, ![1, 4096, 512]⟩
abbrev S1x128x1 : Shape := ⟨3, ![1, 128, 1]⟩
abbrev S1x128x512 : Shape := ⟨3, ![1, 128, 512]⟩
abbrev S128x4096 : Shape := ⟨2, ![128, 4096]⟩
abbrev S128x1 : Shape := ⟨2, ![128, 1]⟩
abbrev S4096x512 : Shape := ⟨2, ![4096, 512]⟩
abbrev S128x512 : Shape := ⟨2, ![128, 512]⟩

abbrev nBuf : Space → Nat
  | .hbm => 18
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x128, .i32⟩
  | .hbm, ⟨2, _⟩ => ⟨S_, .i32⟩
  | .hbm, ⟨3, _⟩ => ⟨S_, .i32⟩
  | .hbm, ⟨4, _⟩ => ⟨S8x128, .i32⟩
  | .hbm, ⟨5, _⟩ => ⟨S8x128, .i32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S_, .i32⟩
  | .hbm, ⟨11, _⟩ => ⟨S8x128, .i32⟩
  | .hbm, ⟨12, _⟩ => ⟨S8x128, .i32⟩
  | .hbm, ⟨13, _⟩ => ⟨S8x128, .f32⟩
  | .hbm, ⟨14, _⟩ => ⟨S8x128x1, .i32⟩
  | .hbm, ⟨15, _⟩ => ⟨S8x128x1, .i32⟩
  | .hbm, ⟨16, _⟩ => ⟨S8x128x1, .f32⟩
  | .hbm, ⟨17, _⟩ => ⟨S8x128x512, .f32⟩
  | .local _ .vmem, ⟨0, _⟩ => ⟨S1x4096x512, .f32⟩
  | .local _ .vmem, ⟨1, _⟩ => ⟨S1x4096x512, .f32⟩
  | .local _ .vmem, ⟨2, _⟩ => ⟨S1x128x1, .i32⟩
  | .local _ .vmem, ⟨3, _⟩ => ⟨S1x128x1, .i32⟩
  | .local _ .vmem, ⟨4, _⟩ => ⟨S1x128x1, .i32⟩
  | .local _ .vmem, ⟨5, _⟩ => ⟨S1x128x1, .i32⟩
  | .local _ .vmem, ⟨6, _⟩ => ⟨S1x128x1, .f32⟩
  | .local _ .vmem, ⟨7, _⟩ => ⟨S1x128x1, .f32⟩
  | .local _ .vmem, ⟨8, _⟩ => ⟨S1x128x512, .f32⟩
  | .local _ .vmem, ⟨9, _⟩ => ⟨S1x128x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S_ : S_.BroadcastsInDim S_ (![] : Fin 0 → Fin S_.rank)
  reduceWindows_S8x128_S8x128_w1s1p0_0_w128s1p127_0 : S8x128.ReduceWindows (![1, 128] : Fin 2 → Nat) ![1, 1] ![0, 127] ![0, 0] S8x128
  h_S_ : 0 < S_.numel
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  iota_S128x4096_d1_w32 : S128x4096.Iotas .tc 32 [1]
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  broadcasts_S128x1_S128x4096 : S128x1.Broadcasts S128x4096
  natLt_1_32 : 1 < 32
  bitsLt_bf16_f32 : FTy.bits .bf16 < FTy.bits .f32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  broadcasts_S128x1_S128x512 : S128x1.Broadcasts S128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S8x4096x512.size a
  hwx0_0 : ∀ i : grid0.Coords, EltTy.bits .f32 = 32 ∨ (Rect.block (s := S8x4096x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S8x128x1.size a
  hwx0_1 : ∀ i : grid0.Coords, EltTy.bits .i32 = 32 ∨ (Rect.block (s := S8x128x1) S1x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S8x128x1.size a
  hwx0_2 : ∀ i : grid0.Coords, EltTy.bits .i32 = 32 ∨ (Rect.block (s := S8x128x1) S1x128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S8x128x1.size a
  hwx0_3 : ∀ i : grid0.Coords, EltTy.bits .f32 = 32 ∨ (Rect.block (s := S8x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x512.size a ≤ S8x128x512.size a
  hwx0_4 : ∀ i : grid0.Coords, EltTy.bits .f32 = 32 ∨ (Rect.block (s := S8x128x512) S1x128x512.size (cc0_transform_4 i) (hinb0_4 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x128 : Shape := ⟨2, ![8, 128]⟩
abbrev S_ : Shape := ⟨0, ![]⟩
abbrev S4096 : Shape := ⟨1, ![4096]⟩
abbrev S1x1x4096 : Shape := ⟨3, ![1, 1, 4096]⟩
abbrev S8x128x1 : Shape := ⟨3, ![8, 128, 1]⟩
abbrev S8x128x4096 : Shape := ⟨3, ![8, 128, 4096]⟩
abbrev S8x128x512 : Shape := ⟨3, ![8, 128, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x128, .i32⟩
  | .hbm, ⟨2, _⟩ => ⟨S_, .i32⟩
  | .hbm, ⟨3, _⟩ => ⟨S_, .i32⟩
  | .hbm, ⟨4, _⟩ => ⟨S8x128, .i32⟩
  | .hbm, ⟨5, _⟩ => ⟨S8x128, .i32⟩
  | .hbm, ⟨6, _⟩ => ⟨S4096, .i32⟩
  | .hbm, ⟨7, _⟩ => ⟨S1x1x4096, .i32⟩
  | .hbm, ⟨8, _⟩ => ⟨S8x128x1, .i32⟩
  | .hbm, ⟨9, _⟩ => ⟨S8x128x4096, .i32⟩
  | .hbm, ⟨10, _⟩ => ⟨S8x128x4096, .i32⟩
  | .hbm, ⟨11, _⟩ => ⟨S8x128x4096, .i1⟩
  | .hbm, ⟨12, _⟩ => ⟨S1x1x4096, .i32⟩
  | .hbm, ⟨13, _⟩ => ⟨S8x128x1, .i32⟩
  | .hbm, ⟨14, _⟩ => ⟨S8x128x4096, .i32⟩
  | .hbm, ⟨15, _⟩ => ⟨S8x128x4096, .i32⟩
  | .hbm, ⟨16, _⟩ => ⟨S8x128x4096, .i1⟩
  | .hbm, ⟨17, _⟩ => ⟨S8x128x4096, .i1⟩
  | .hbm, ⟨18, _⟩ => ⟨S8x128x4096, .f32⟩
  | .hbm, ⟨19, _⟩ => ⟨S8x128x512, .f32⟩
  | .hbm, ⟨20, _⟩ => ⟨S_, .i32⟩
  | .hbm, ⟨21, _⟩ => ⟨S8x128, .i32⟩
  | .hbm, ⟨22, _⟩ => ⟨S8x128, .i1⟩
  | .hbm, ⟨23, _⟩ => ⟨S_, .i32⟩
  | .hbm, ⟨24, _⟩ => ⟨S_, .i32⟩
  | .hbm, ⟨25, _⟩ => ⟨S8x128, .i32⟩
  | .hbm, ⟨26, _⟩ => ⟨S8x128, .i32⟩
  | .hbm, ⟨27, _⟩ => ⟨S8x128x1, .i32⟩
  | .hbm, ⟨28, _⟩ => ⟨S8x128x1, .f32⟩
  | .hbm, ⟨29, _⟩ => ⟨S8x128x512, .f32⟩
  | .hbm, ⟨30, _⟩ => ⟨S8x128x512, .f32⟩
  | .hbm, ⟨31, _⟩ => ⟨S_, .f32⟩
  | .hbm, ⟨32, _⟩ => ⟨S8x128x512, .f32⟩
  | .hbm, ⟨33, _⟩ => ⟨S8x128x512, .i1⟩
  | .hbm, ⟨34, _⟩ => ⟨S_, .f32⟩
  | .hbm, ⟨35, _⟩ => ⟨S8x128x512, .f32⟩
  | .hbm, ⟨36, _⟩ => ⟨S8x128x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_call2_v0 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x128_S8x128_w1s1p0_0_w128s1p127_0 : S8x128.ReduceWindows (![1, 128] : Fin 2 → Nat) ![1, 1] ![0, 127] ![0, 0] S8x128
  h_S_ : 0 < S_.numel
  bcast_S4096_S1x1x4096_2 : S4096.BroadcastsInDim S1x1x4096 (![2] : Fin 1 → Fin S1x1x4096.rank)
  bcast_S8x128_S8x128x1_0_1 : S8x128.BroadcastsInDim S8x128x1 (![0, 1] : Fin 2 → Fin S8x128x1.rank)
  bcast_S1x1x4096_S8x128x4096_0_1_2 : S1x1x4096.BroadcastsInDim S8x128x4096 (![0, 1, 2] : Fin 3 → Fin S8x128x4096.rank)
  bcast_S8x128x1_S8x128x4096_0_1_2 : S8x128x1.BroadcastsInDim S8x128x4096 (![0, 1, 2] : Fin 3 → Fin S8x128x4096.rank)
  bcast_S_S8x128 : S_.BroadcastsInDim S8x128 (![] : Fin 0 → Fin S8x128.rank)
  bcast_S8x128x1_S8x128x512_0_1_2 : S8x128x1.BroadcastsInDim S8x128x512 (![0, 1, 2] : Fin 3 → Fin S8x128x512.rank)
  bcast_S_S8x128x512 : S_.BroadcastsInDim S8x128x512 (![] : Fin 0 → Fin S8x128x512.rank)
  dot_S8x128x4096_S8x4096x512_S8x128x512_2_1_1_2_0_0_wf : DotDims.WF S8x128x4096 S8x4096x512 S8x128x512 [2] [1] [1] [2] [0] [0]

variable [Facts₀]

def dot_S8x128x4096_S8x4096x512_S8x128x512_2_1_1_2_0_0 : DotDims S8x128x4096 S8x4096x512 S8x128x512 where
  lhsContracting := [2]
  rhsContracting := [1]
  lhsNonContracting := [1]
  rhsNonContracting := [2]
  lhsBatch := [0]
  rhsBatch := [0]
  wf := dot_S8x128x4096_S8x4096x512_S8x128x512_2_1_1_2_0_0_wf

class Facts : Prop extends Facts₀ where

variable [Facts]
-- ==== Proof.PatchMean.lean ====
/-
  Mean pooling over ragged patches, as one function of the two arguments.

  Row b of the batch is a sequence x[b, s, d] of 4096 positions s by 512 channels d, cut into 128 consecutive patches
  whose lengths are len[b, p]. Patch p of row b covers the positions s with begin <= s < end, where
  end = len[b, 0] + ... + len[b, p] (the running sum along the row, on 32-bit words) and begin = end - len[b, p]; the
  comparisons are those of signed 32-bit words, the position read as the word of s.

  The pooled value at (b, p, d) is the sum of x[b, s, d] over the patch's positions, written as the sum over ALL
  positions of weight * x with the weight 1 inside the patch and 0 outside, divided by the patch's length (by 1 for an
  empty patch), and an exact zero quotient is replaced by -1.

  Both programs compute this: one as a [128, 4096] mask times the [4096, 512] slab of one row at a time, the other as
  one batched product of the [8, 128, 4096] mask with the whole batch. The sum at an entry is literally the same sum, so
  no law of the extended reals beyond reading each operation at an entry is needed, and nothing is asked of the data.
  The few scalar facts that differ in spelling between the two are here: the mask bit reaches the product as a signed
  conversion of its zero-extension on one side and as an unsigned conversion on the other; the two conjuncts of the
  mask are taken in either order; the "ordered" and "unordered" not-equal tests agree where there is no NaN.
-/
import Idealize.ShloMosaic.Lib.ValueIdx
import Idealize.ShloMosaic.PureOps.Ideal.Laws

noncomputable section

open scoped BigOperators

namespace Cert.PatchMean

open Idealize.ShloMosaic Idealize.ShloMosaic.ValueIdx

/-- The running sum's window: 128 entries of a row ending at the entry itself (127 padded before the row's start). -/
theorem windows :
    (⟨2, ![8, 128]⟩ : Shape).ReduceWindows (![1, 128] : Fin 2 → Nat) ![1, 1] ![0, 127] ![0, 0] ⟨2, ![8, 128]⟩ := by decide

/-- The patch ends: the running sum of the lengths along each row, on 32-bit words. -/
def ends (len : IVec ⟨2, ![8, 128]⟩ 32) : IVec ⟨2, ![8, 128]⟩ 32 :=
  Host.reduceWindow IntOp.addi ![1, 128] ![1, 1] ![0, 127] ![0, 0] len (fun _ : (⟨0, ![]⟩ : Shape).Idx => 0#32)
    windows (by decide)

/-- Whether position s lies in the patch [lo, hi): the bit (lo <= s) and (s < hi), signed 32-bit comparisons. -/
def inside (lo hi : BitVec 32) (s : Fin 4096) : BitVec 1 :=
  IntOp.andi (IntOp.cmpi .sge (BitVec.ofNat 32 s.val) lo) (IntOp.cmpi .slt (BitVec.ofNat 32 s.val) hi)

/-- The weight of position s for the patch [lo, hi): 1 inside, 0 outside. -/
def weight (lo hi : BitVec 32) (s : Fin 4096) : EReal := (((inside lo hi s).toNat : ℝ) : EReal)

/-- The divisor of a patch of length n: the length as a signed number, 1 for an empty patch. -/
def divisor (n : BitVec 32) : EReal := (((Scalar.select (IntOp.cmpi .eq n 0#32) 1#32 n).toInt : ℝ) : EReal)

/-- A value with its exact zero replaced by -1. -/
def zeroToMinusOne (q : EReal) : EReal := if q = 0 then -1 else q

/-- One pooled entry from a patch's bounds, its divisor and one channel's column of the row's sequence. -/
def entry (lo hi : BitVec 32) (den : EReal) (col : Fin 4096 → EReal) : EReal :=
  zeroToMinusOne (Ideal.div (∑ s : Fin 4096, weight lo hi s * col s) den)

/-- The pooled value at batch row b, patch p, channel d. -/
def pooled (x : (⟨3, ![8, 4096, 512]⟩ : Shape).Idx → EReal) (len : IVec ⟨2, ![8, 128]⟩ 32)
    (b : Fin 8) (p : Fin 128) (d : Fin 512) : EReal :=
  entry (ends len (ix2 b p) - len (ix2 b p)) (ends len (ix2 b p)) (divisor (len (ix2 b p))) (fun s => x (ix3 b s d))

/-- The whole result: the pooled values as one [8, 128, 512] array of the two arguments. -/
def result (x : (⟨3, ![8, 4096, 512]⟩ : Shape).Idx → EReal) (len : IVec ⟨2, ![8, 128]⟩ 32) :
    (⟨3, ![8, 128, 512]⟩ : Shape).Idx → EReal :=
  fun j => pooled x len (j 0) (j 1) (j 2)

theorem result_ix3 (x : (⟨3, ![8, 4096, 512]⟩ : Shape).Idx → EReal) (len : IVec ⟨2, ![8, 128]⟩ 32)
    (b : Fin 8) (p : Fin 128) (d : Fin 512) : result x len (ix3 b p d) = pooled x len b p d := rfl

/-! ## The scalar facts -/

/-- A mask bit, zero-extended to 32 bits and converted as a signed integer, is the bit's value 0 or 1. -/
theorem sitofp_extui (m : BitVec 1) :
    (FloatOps.sitofp (F := Ideal) .f32 (m.setWidth 32) : Ideal .f32) = (((m.toNat : ℝ) : EReal) : Ideal .f32) := by
  show ((((m.setWidth 32).toInt : ℤ) : ℝ) : EReal) = ((m.toNat : ℝ) : EReal)
  rcases BitVec.eq_zero_or_eq_one m with rfl | rfl
  · have h : ((0#1 : BitVec 1).setWidth 32).toInt = 0 := by decide
    rw [h]; simp
  · have h : ((1#1 : BitVec 1).setWidth 32).toInt = 1 := by decide
    rw [h]; simp

/-- A mask bit converted as an unsigned integer is the bit's value 0 or 1. -/
theorem uitofp_bit (m : BitVec 1) :
    (FloatOps.uitofp (F := Ideal) .f32 m : Ideal .f32) = (((m.toNat : ℝ) : EReal) : Ideal .f32) := rfl

/-- The two conjuncts of the mask in the other order. -/
theorem inside_comm (lo hi : BitVec 32) (s : Fin 4096) :
    IntOp.andi (IntOp.cmpi .slt (BitVec.ofNat 32 s.val) hi) (IntOp.cmpi .sge (BitVec.ofNat 32 s.val) lo) = inside lo hi s :=
  BitVec.and_comm _ _

/-- The f32 word of -1 denotes -1. -/
theorem minusOne : Ideal.ofBits .f32 0xBF800000#32 = -1 := IdealRules.sign_bit.ideal_negOnePat .f32

/-- Keeping a value where it differs from the zero word and putting the word of -1 elsewhere replaces an exact zero by
    -1, under the ordered and under the unordered "not equal" test alike: there is no NaN for them to differ on. -/
theorem select_ne (p : CmpFPredicate) (hp : p = .one ∨ p = .une) (q : EReal) :
    Scalar.select (Ideal.cmp p q (Ideal.ofBits .f32 0x00000000#32)) q (Ideal.ofBits .f32 0xBF800000#32)
      = zeroToMinusOne q := by
  rw [Ideal.ofBits_zero_f32, minusOne]
  unfold zeroToMinusOne Scalar.select
  by_cases h : q = 0
  · rcases hp with rfl | rfl <;> simp [Ideal.cmp, h]
  · rcases hp with rfl | rfl <;> simp [Ideal.cmp, h]

end Cert.PatchMean

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.KernelEntry.lean ====
/-
  What the kernel body stores, read at one entry.

  At one batch row the body builds the [128, 4096] mask (patch p against position s) from the row's begin and end
  columns, multiplies it with the row's [4096, 512] slab on the matrix unit into a zero accumulator, divides row p by
  the row's divisor column, and replaces an exact zero by -1. Read at entry (p, d) of the stored block:

  * the mask at (p, s) is the weight of position s for the patch whose bounds are entry p of the two columns
    (the position is the iota's coordinate; the columns are spread along the positions; the bit goes through a
    zero-extension and a signed conversion; the change of format is the identity on extended reals);
  * the slab at (s, d) is the loaded block at (0, s, d);
  * the product at (p, d) is the sum over the positions s of mask (p, s) * slab (s, d);
  * the divisor at (p, d) is entry p of the divisor column;

  so the stored value is the pooled entry of those bounds, that divisor and channel d's column of the slab.
-/
import proofs.«157469_j29746943492489_1_alg».proof.Proof.Gen.KernelIdeal.Skeleton
import proofs.«157469_j29746943492489_1_alg».proof.Proof.PatchMean
import proofs.«157469_j29746943492489_1_alg».proof.Proof.LibPlainDot
import proofs.«157469_j29746943492489_1_alg».proof.Proof.LibKeepdims
import Idealize.ShloMosaic.Lib.ValueLayout
import Idealize.ShloMosaic.Lib.Pipeline.Value

noncomputable section

open scoped BigOperators

namespace Cert.KernelIdeal.Entry

open Cert.KernelIdeal Cert.KernelIdeal.Gen Idealize.ShloMosaic Idealize.ShloMosaic.ValueIdx Cert.PatchMean
open Idealize.ShloMosaic.ValueKeepdims

/-- The mask at (p, s): the weight of position s for the patch bounded by entry p of the two columns. -/
theorem mask_apply (x1 x5 : Vec Ideal S1x128x1 .i32) (h1 : S1x128x1.ShapeCasts S128x1) (h2 : S128x1.Broadcasts S128x4096)
    (h3 : S128x4096.Iotas .tc 32 [1]) (h4 : 1 < 32) (h5 : FTy.bits .bf16 < FTy.bits .f32) (p : Fin 128) (s : Fin 4096) :
    (truncf .bf16 (sitofp .f32 (extui 32 (andi
        (cmpi .sge (iota .tc S128x4096 32 [1] h3) (broadcastTo S128x4096 (shapeCast S128x1 x1 h1) h2))
        (cmpi .slt (iota .tc S128x4096 32 [1] h3) (broadcastTo S128x4096 (shapeCast S128x1 x5 h1) h2))) h4)) h5
      : FVec Ideal S128x4096 .bf16) (ix2 p s)
      = weight (x1 (ix3 (0 : Fin 1) p (0 : Fin 1))) (x5 (ix3 (0 : Fin 1) p (0 : Fin 1))) s := by
  show FloatOps.sitofp (F := Ideal) .f32 ((IntOp.andi
      (IntOp.cmpi .sge (iota .tc S128x4096 32 [1] h3 (ix2 p s)) (broadcastTo S128x4096 (shapeCast S128x1 x1 h1) h2 (ix2 p s)))
      (IntOp.cmpi .slt (iota .tc S128x4096 32 [1] h3 (ix2 p s)) (broadcastTo S128x4096 (shapeCast S128x1 x5 h1) h2 (ix2 p s)))).setWidth 32)
    = _
  rw [sitofp_extui, iota_single_apply, broadcastTo_a1_ab_apply, broadcastTo_a1_ab_apply, shapeCast_1ab_ab_apply,
    shapeCast_1ab_ab_apply]
  rfl

/-- The slab at (s, d): the loaded block at (0, s, d). -/
theorem slab_apply (x13 : Vec Ideal S1x4096x512 .f32) (h1 : S1x4096x512.ShapeCasts S4096x512)
    (h5 : FTy.bits .bf16 < FTy.bits .f32) (s : Fin 4096) (d : Fin 512) :
    (truncf .bf16 (shapeCast S4096x512 x13 h1) h5 : FVec Ideal S4096x512 .bf16) (ix2 s d) = x13 (ix3 (0 : Fin 1) s d) :=
  shapeCast_1ab_ab_apply x13 h1 s d

/-- The divisor at (p, d): entry p of the divisor column. -/
theorem den_apply (x17 : Vec Ideal S1x128x1 .f32) (h1 : S1x128x1.ShapeCasts S128x1) (h2 : S128x1.Broadcasts S128x512)
    (p : Fin 128) (d : Fin 512) :
    broadcastTo S128x512 (shapeCast S128x1 x17 h1) h2 (ix2 p d) = x17 (ix3 (0 : Fin 1) p (0 : Fin 1)) := by
  rw [broadcastTo_a1_ab_apply, shapeCast_1ab_ab_apply]

/-- The product into the zero accumulator at (p, d): the sum over the positions. -/
theorem sums_apply (l : FVec Ideal S128x4096 .bf16) (r : FVec Ideal S4096x512 .bf16) (p : Fin 128) (d : Fin 512) :
    matmul dot_S128x4096_S4096x512_S128x512_1_0_0_1_n_n none l r (constant S128x512 .f32 0x00000000#32) (ix2 p d)
      = ∑ s : Fin 4096, l (ix2 p s) * r (ix2 s d) :=
  Cert.Lib.PlainDot.matmul_zero_apply none l r p d

/-- The stored expression over ANY mask l, slab r and divisor array dn, read at (u, p, d): if row p of the mask is the
    weights of a patch [lo, hi), column d of the slab is col and the divisor at (p, d) is den, the entry is the pooled
    entry of those. -/
theorem stored_apply (l : FVec Ideal S128x4096 .bf16) (r : FVec Ideal S4096x512 .bf16) (dn : FVec Ideal S128x512 .f32)
    (h : S128x512.ShapeCasts S1x128x512) (u : Fin 1) (p : Fin 128) (d : Fin 512)
    (lo hi : BitVec 32) (den : EReal) (col : Fin 4096 → EReal)
    (hl : ∀ s : Fin 4096, l (ix2 p s) = weight lo hi s) (hr : ∀ s : Fin 4096, r (ix2 s d) = col s)
    (hd : dn (ix2 p d) = den) :
    shapeCast S1x128x512
        (select
          (cmpf .one (divf (matmul dot_S128x4096_S4096x512_S128x512_1_0_0_1_n_n none l r (constant S128x512 .f32 0x00000000#32)) dn)
            (broadcast S128x512 (Scalar.ofBits (F := Ideal) .f32 0x00000000#32)))
          (divf (matmul dot_S128x4096_S4096x512_S128x512_1_0_0_1_n_n none l r (constant S128x512 .f32 0x00000000#32)) dn)
          (broadcast S128x512 (Scalar.ofBits (F := Ideal) .f32 0xBF800000#32)))
        h (ix3 u p d)
      = entry lo hi den col := by
  refine (shapeCast_ab_1ab_apply _ _ u p d).trans ?_
  show Scalar.select
      (Ideal.cmp .one
        (Ideal.div (matmul dot_S128x4096_S4096x512_S128x512_1_0_0_1_n_n none l r (constant S128x512 .f32 0x00000000#32) (ix2 p d)) (dn (ix2 p d)))
        (Ideal.ofBits .f32 0x00000000#32))
      (Ideal.div (matmul dot_S128x4096_S4096x512_S128x512_1_0_0_1_n_n none l r (constant S128x512 .f32 0x00000000#32) (ix2 p d)) (dn (ix2 p d)))
      (Ideal.ofBits .f32 0xBF800000#32) = _
  have hs : (∑ s : Fin 4096, l (ix2 p s) * r (ix2 s d)) = ∑ s : Fin 4096, weight lo hi s * col s :=
    Finset.sum_congr rfl fun s _ => by rw [hl s, hr s]
  rw [sums_apply, hs, hd]
  exact select_ne .one (Or.inl rfl) _

/-- THE STORED VALUE at (u, p, d): the pooled entry of the patch bounded by entry p of the begin and end columns,
    divided by entry p of the divisor column, over channel d's column of the slab. -/
theorem pay_apply (x1 x5 : Vec Ideal S1x128x1 .i32) (x13 : Vec Ideal S1x4096x512 .f32) (x17 : Vec Ideal S1x128x1 .f32)
    (u : Fin 1) (p : Fin 128) (d : Fin 512) :
    k0_pay1 (F := Ideal) x1 x5 x13 x17 (ix3 u p d)
      = entry (x1 (ix3 (0 : Fin 1) p (0 : Fin 1))) (x5 (ix3 (0 : Fin 1) p (0 : Fin 1))) (x17 (ix3 (0 : Fin 1) p (0 : Fin 1)))
          (fun s => x13 (ix3 (0 : Fin 1) s d)) := by
  unfold k0_pay1
  dsimp only
  exact stored_apply _ _ _ _ u p d _ _ _ _ (fun s => mask_apply x1 x5 _ _ _ _ _ p s) (fun s => slab_apply x13 _ _ s d)
    (den_apply x17 _ _ p d)

end Cert.KernelIdeal.Entry

end
-- ==== Proof.LibHostBroadcast.lean ====
/-
  The host's broadcast_in_dim in the forms a mask over [a, b, c] is built from, each read at coordinates.

  * a scalar spread over any shape: every entry is the scalar;
  * an [a, b] matrix given a unit trailing axis, dims [0, 1] into [a, b, 1]: entry (i, j, u) is the matrix's (i, j);
  * an [a, b, 1] array spread along its trailing axis, dims [0, 1, 2] into [a, b, c]: entry (i, j, k) is the operand's
    (i, j, 0);
  * a vector [c] placed on the last axis, dims [2] into [1, 1, c]: entry (u, v, k) is the vector's k;
  * a [1, 1, c] array spread over the two leading axes, dims [0, 1, 2] into [a, b, c]: entry (i, j, k) is the
    operand's (0, 0, k).

  All are general in the extents and in the proof of the operation's side condition.
-/
import Idealize.ShloMosaic.Lib.ValueIdx
import Idealize.ShloMosaic.Lib.Pipeline.Value

namespace Idealize.ShloMosaic.ValueHostBroadcast

open Idealize.ShloMosaic Idealize.ShloMosaic.ValueIdx

variable {α : Type}

/-- A scalar broadcast over a shape reads the scalar at every index. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- An [a, b] matrix broadcast to [a, b, 1] along dims [0, 1] reads, at (i, j, u), the matrix at (i, j). -/
theorem broadcastInDim_ab_ab1_apply {a b : ℕ}
    (h : (⟨2, ![a, b]⟩ : Shape).BroadcastsInDim ⟨3, ![a, b, 1]⟩ (![0, 1] : Fin 2 → Fin 3))
    (x : (⟨2, ![a, b]⟩ : Shape).Idx → α) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An [a, b, 1] array broadcast to [a, b, c] along dims [0, 1, 2] reads, at (i, j, k), the operand at (i, j, 0). -/
theorem broadcastInDim_ab1_abc_apply {a b c : ℕ}
    (h : (⟨3, ![a, b, 1]⟩ : Shape).BroadcastsInDim ⟨3, ![a, b, c]⟩ (![0, 1, 2] : Fin 3 → Fin 3))
    (x : (⟨3, ![a, b, 1]⟩ : Shape).Idx → α) (i : Fin a) (j : Fin b) (k : Fin c) :
    broadcastInDim ⟨3, ![a, b, c]⟩ ![0, 1, 2] h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A vector [c] broadcast to [1, 1, c] along dims [2] reads, at (u, v, k), the vector at k. -/
theorem broadcastInDim_c_11c_apply {c : ℕ}
    (h : (⟨1, ![c]⟩ : Shape).BroadcastsInDim ⟨3, ![1, 1, c]⟩ (![2] : Fin 1 → Fin 3))
    (x : (⟨1, ![c]⟩ : Shape).Idx → α) (u v : Fin 1) (k : Fin c) :
    broadcastInDim ⟨3, ![1, 1, c]⟩ ![2] h x (ix3 u v k) = x (ix1 k) := by
  refine broadcastInDim_apply _ h x (ix3 u v k) (ix1 k) fun ax => ?_
  match ax with
  | ⟨0, _⟩ =>
    show k.val = if c = 1 then 0 else k.val
    split
    · have := k.isLt; omega
    · rfl

/-- A [1, 1, c] array broadcast to [a, b, c] along dims [0, 1, 2] reads, at (i, j, k), the operand at (0, 0, k). -/
theorem broadcastInDim_11c_abc_apply {a b c : ℕ}
    (h : (⟨3, ![1, 1, c]⟩ : Shape).BroadcastsInDim ⟨3, ![a, b, c]⟩ (![0, 1, 2] : Fin 3 → Fin 3))
    (x : (⟨3, ![1, 1, c]⟩ : Shape).Idx → α) (i : Fin a) (j : Fin b) (k : Fin c) :
    broadcastInDim ⟨3, ![a, b, c]⟩ ![0, 1, 2] h x (ix3 i j k) = x (ix3 (0 : Fin 1) (0 : Fin 1) k) := by
  refine broadcastInDim_apply _ h x (ix3 i j k) (ix3 (0 : Fin 1) (0 : Fin 1) k) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Idealize.ShloMosaic.ValueHostBroadcast
-- ==== Proof.KernelValue.lean ====
/-
  The kernel's result array, as one function of the two arguments.

  Before the region the host computes, from the lengths, the patch ends (the running sum), the patch begins (ends minus
  lengths) and the divisors (the zero-protected lengths as numbers), each as an [8, 128, 1] column array. The region has
  one grid point per batch row t: it reads row t's [1, 4096, 512] slab of the batch and row t's [1, 128, 1] blocks of
  the three column arrays, and writes back the [1, 128, 512] block t of the result. So

  * entry (u, s, d) of the slab's block at point t is the batch at (t, s, d); entry (u, p, v) of a column's block at t
    is the column array at (t, p, v), which is the ends / begins / divisor of patch p of row t;
  * what point t writes back, at (u, p, d), is the pooled entry of row t, patch p, channel d: block t of "result";
  * every index (b, p, d) of the result array lies in the block of point b;

  hence after the run the result array is "result" of the two arguments, and the arguments are unchanged.
-/
import proofs.«157469_j29746943492489_1_alg».proof.Proof.Gen.KernelIdeal.Value
import proofs.«157469_j29746943492489_1_alg».proof.Proof.KernelEntry
import proofs.«157469_j29746943492489_1_alg».proof.Proof.LibHostBroadcast
import Idealize.ShloMosaic.Lib.Pipeline.Value
import Idealize.ShloMosaic.Lib.StableHlo.Run

noncomputable section

namespace Cert.KernelIdeal.Pooled

open Cert.KernelIdeal Cert.KernelIdeal.Gen Idealize.ShloMosaic Idealize.ShloMosaic.TcCoe Idealize.SL.Sem
open Idealize.ShloMosaic.ValueIdx Idealize.ShloMosaic.ValueHostBroadcast Idealize.ShloMosaic.StableHlo Cert.PatchMean
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The grid has one point per batch row. -/
theorem hN : cfg0.N = 8 := N_0

/-- The batch row of a grid point. -/
def row (t : Fin cfg0.N) : Fin 8 := ⟨t.val, by have := t.isLt; have := hN; omega⟩

/-! ## The column arrays as the region finds them -/

/-- The ends column: the running sum of the lengths, with a unit trailing axis. -/
theorem V_ends (c : Dev nD) : (V m c main_v7 : S8x128x1.Idx → BitVec 32)
    = broadcastInDim S8x128x1 ![0, 1] bcast_S8x128_S8x128x1_0_1 (ends (m ((c : Thread nD τ).loc main_arg1))) := by
  dsimp only [V]
  simp only [hostOps0, hostOps0_1, hostOps0_2, hostOps0_3, List.flatten_cons, List.flatten_nil, List.append_nil,
    List.cons_append, List.nil_append]
  after_results
  simp only [TRef.toBuf, TRef.ofBuf, cast_eq]
  rfl

/-- The begins column: ends minus lengths, with a unit trailing axis. -/
theorem V_begins (c : Dev nD) : (V m c main_v6 : S8x128x1.Idx → BitVec 32)
    = broadcastInDim S8x128x1 ![0, 1] bcast_S8x128_S8x128x1_0_1
        (subi (ends (m ((c : Thread nD τ).loc main_arg1))) (m ((c : Thread nD τ).loc main_arg1))) := by
  dsimp only [V]
  simp only [hostOps0, hostOps0_1, hostOps0_2, hostOps0_3, List.flatten_cons, List.flatten_nil, List.append_nil,
    List.cons_append, List.nil_append]
  after_results
  simp only [TRef.toBuf, TRef.ofBuf, cast_eq]
  rfl

/-- The divisor column: the lengths with 0 replaced by 1, as numbers, with a unit trailing axis. -/
theorem V_divisors (c : Dev nD) : (V m c main_v8 : S8x128x1.Idx → EReal)
    = broadcastInDim S8x128x1 ![0, 1] bcast_S8x128_S8x128x1_0_1
        (fun i : S8x128.Idx => divisor ((m ((c : Thread nD τ).loc main_arg1) : S8x128.Idx → BitVec 32) i)) := by
  dsimp only [V]
  simp only [hostOps0, hostOps0_1, hostOps0_2, hostOps0_3, List.flatten_cons, List.flatten_nil, List.append_nil,
    List.cons_append, List.nil_append]
  after_results
  simp only [TRef.toBuf, TRef.ofBuf, cast_eq]
  rfl

/-! ## The windows' blocks at a grid point -/

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The slab's block at point t, at (u, s, d): the batch at (t, s, d). -/
theorem iblk0_apply (c : Dev nD) (t : Fin cfg0.N) (u : Fin 1) (s : Fin 4096) (d : Fin 512) :
    (iblk m c 0 t : Vec Ideal S1x4096x512 .f32) (ix3 u s d)
      = (m ((c : Thread nD τ).loc main_arg0) : S8x4096x512.Idx → EReal) (ix3 (row t) s d) := by
  obtain ⟨⟨e0, e1, e2⟩, -⟩ := idx_facts t
  unfold iblk
  rw [View.read_apply]
  show V m c main_arg0 _ = _
  rw [V_main_arg0]
  refine congrArg _ (funext fun a => Fin.ext ?_)
  have hu : u.val = 0 := by omega
  match a with
  | ⟨0, _⟩ => show win0_0.index t (0 : Fin 3) * 1 + 1 * u.val = t.val; omega
  | ⟨1, _⟩ => show win0_0.index t (1 : Fin 3) * 4096 + 1 * s.val = s.val; omega
  | ⟨2, _⟩ => show win0_0.index t (2 : Fin 3) * 512 + 1 * d.val = d.val; omega

/-- The begins block at point t, at (u, p, v): the begin of patch p of row t. -/
theorem iblk1_apply (c : Dev nD) (t : Fin cfg0.N) (u : Fin 1) (p : Fin 128) (v : Fin 1) :
    (iblk m c 1 t : Vec Ideal S1x128x1 .i32) (ix3 u p v)
      = ends (m ((c : Thread nD τ).loc main_arg1)) (ix2 (row t) p)
        - (m ((c : Thread nD τ).loc main_arg1) : S8x128.Idx → BitVec 32) (ix2 (row t) p) := by
  obtain ⟨-, ⟨e0, e1, e2⟩, -⟩ := idx_facts t
  unfold iblk
  rw [View.read_apply]
  show (V m c main_v6 : S8x128x1.Idx → BitVec 32) _ = _
  rw [V_begins]
  have hu : u.val = 0 := by omega
  have he : (((cfg0.win 1).blk t).view.emb (ix3 u p v) : S8x128x1.Idx) = ix3 (row t) p v :=
    funext fun a => Fin.ext (by
      match a with
      | ⟨0, _⟩ => show win0_1.index t (0 : Fin 3) * 1 + 1 * u.val = t.val; omega
      | ⟨1, _⟩ => show win0_1.index t (1 : Fin 3) * 128 + 1 * p.val = p.val; omega
      | ⟨2, _⟩ => show win0_1.index t (2 : Fin 3) * 1 + 1 * v.val = v.val; omega)
  rw [he, broadcastInDim_ab_ab1_apply]
  rfl

/-- The ends block at point t, at (u, p, v): the end of patch p of row t. -/
theorem iblk2_apply (c : Dev nD) (t : Fin cfg0.N) (u : Fin 1) (p : Fin 128) (v : Fin 1) :
    (iblk m c 2 t : Vec Ideal S1x128x1 .i32) (ix3 u p v) = ends (m ((c : Thread nD τ).loc main_arg1)) (ix2 (row t) p) := by
  obtain ⟨-, -, ⟨e0, e1, e2⟩, -⟩ := idx_facts t
  unfold iblk
  rw [View.read_apply]
  show (V m c main_v7 : S8x128x1.Idx → BitVec 32) _ = _
  rw [V_ends]
  have hu : u.val = 0 := by omega
  have he : (((cfg0.win 2).blk t).view.emb (ix3 u p v) : S8x128x1.Idx) = ix3 (row t) p v :=
    funext fun a => Fin.ext (by
      match a with
      | ⟨0, _⟩ => show win0_2.index t (0 : Fin 3) * 1 + 1 * u.val = t.val; omega
      | ⟨1, _⟩ => show win0_2.index t (1 : Fin 3) * 128 + 1 * p.val = p.val; omega
      | ⟨2, _⟩ => show win0_2.index t (2 : Fin 3) * 1 + 1 * v.val = v.val; omega)
  rw [he, broadcastInDim_ab_ab1_apply]

/-- The divisor block at point t, at (u, p, v): the divisor of patch p of row t. -/
theorem iblk3_apply (c : Dev nD) (t : Fin cfg0.N) (u : Fin 1) (p : Fin 128) (v : Fin 1) :
    (iblk m c 3 t : Vec Ideal S1x128x1 .f32) (ix3 u p v)
      = divisor ((m ((c : Thread nD τ).loc main_arg1) : S8x128.Idx → BitVec 32) (ix2 (row t) p)) := by
  obtain ⟨-, -, -, ⟨e0, e1, e2⟩, -⟩ := idx_facts t
  unfold iblk
  rw [View.read_apply]
  show (V m c main_v8 : S8x128x1.Idx → EReal) _ = _
  rw [V_divisors]
  have hu : u.val = 0 := by omega
  have he : (((cfg0.win 3).blk t).view.emb (ix3 u p v) : S8x128x1.Idx) = ix3 (row t) p v :=
    funext fun a => Fin.ext (by
      match a with
      | ⟨0, _⟩ => show win0_3.index t (0 : Fin 3) * 1 + 1 * u.val = t.val; omega
      | ⟨1, _⟩ => show win0_3.index t (1 : Fin 3) * 128 + 1 * p.val = p.val; omega
      | ⟨2, _⟩ => show win0_3.index t (2 : Fin 3) * 1 + 1 * v.val = v.val; omega)
  rw [he, broadcastInDim_ab_ab1_apply]

/-! ## What a point writes back, and the whole array -/

/-- WHAT POINT t WRITES BACK is block t of "result" of the two arguments. -/
theorem flushed_eq (c : Dev nD) (t : Fin cfg0.N) :
    (dats m 0 c).flushed 4 t = ((cfg0.win 4).blk t).view.read (Elt Ideal)
      (result (m ((c : Thread nD τ).loc main_arg0)) (m ((c : Thread nD τ).loc main_arg1))) := by
  obtain ⟨-, -, -, -, ⟨e0, e1, e2⟩⟩ := idx_facts t
  rw [Cert.KernelIdeal.Value.flushed4]
  unfold out0_4
  rw [View.canon_unit_zero hz]
  simp only [View.ld_unit_zero (S := S1x128x1) hz, View.ld_unit_zero (S := S1x4096x512) hz]
  funext y
  obtain ⟨u, p, d, rfl⟩ : ∃ (u : Fin 1) (p : Fin 128) (d : Fin 512), y = ix3 u p d := ⟨y 0, y 1, y 2, eq_ix3 y⟩
  show k0_pay1 (iblk m c 1 t : Vec Ideal S1x128x1 .i32) (iblk m c 2 t : Vec Ideal S1x128x1 .i32)
      (iblk m c 0 t : Vec Ideal S1x4096x512 .f32) (iblk m c 3 t : Vec Ideal S1x128x1 .f32) (ix3 u p d)
    = result (m ((c : Thread nD τ).loc main_arg0)) (m ((c : Thread nD τ).loc main_arg1))
        (((cfg0.win 4).blk t).view.emb (ix3 u p d))
  have hu : u.val = 0 := by omega
  have he : (((cfg0.win 4).blk t).view.emb (ix3 u p d) : S8x128x512.Idx) = ix3 (row t) p d :=
    funext fun a => Fin.ext (by
      match a with
      | ⟨0, _⟩ => show win0_4.index t (0 : Fin 3) * 1 + 1 * u.val = t.val; omega
      | ⟨1, _⟩ => show win0_4.index t (1 : Fin 3) * 128 + 1 * p.val = p.val; omega
      | ⟨2, _⟩ => show win0_4.index t (2 : Fin 3) * 512 + 1 * d.val = d.val; omega)
  rw [he, result_ix3, Cert.KernelIdeal.Entry.pay_apply, iblk1_apply, iblk2_apply, iblk3_apply]
  unfold pooled
  exact congrArg _ (funext fun s => iblk0_apply m c t 0 s d)

/-- An index of the result array is in point t's block iff each coordinate is in the block's range on its axis. -/
theorem mem_blk (t : Fin cfg0.N) (i : S8x128x512.Idx) :
    i ∈ ((cfg0.win 4).blk t).view.set ↔ ∀ a : Fin 3, win0_4.index t a * S1x128x512.size a ≤ (i a).val
      ∧ (i a).val < win0_4.index t a * S1x128x512.size a + S1x128x512.size a := by
  show i ∈ ((View.whole main_v9).slice (win0_4.rect t)).set ↔ _
  rw [View.set_slice_whole, Rect.mem_set_unit]
  exact Iff.rfl

/-- Every index (b, p, d) of the result array lies in the block of point b. -/
theorem cover (i : S8x128x512.Idx) :
    ∃ t : Fin cfg0.N, (cfg0.win 4).flush t = true ∧ i ∈ ((cfg0.win 4).blk t).view.set := by
  have h0 : (i 0).val < 8 := (i 0).isLt
  have h1 : (i 1).val < 128 := (i 1).isLt
  have h2 : (i 2).val < 512 := (i 2).isLt
  have hn := hN
  refine ⟨⟨(i 0).val, by omega⟩, flush0_4 _, ?_⟩
  obtain ⟨-, -, -, -, ⟨e0', e1, e2⟩⟩ := idx_facts ⟨(i 0).val, by omega⟩
  have e0 : win0_4.index (⟨(i 0).val, by omega⟩ : Fin cfg0.N) (0 : Fin 3) = (i 0).val := e0'
  rw [mem_blk]
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    rw [e0]; omega
  | ⟨1, _⟩ =>
    show win0_4.index ⟨(i 0).val, _⟩ (1 : Fin 3) * 128 ≤ (i 1).val ∧ (i 1).val < win0_4.index ⟨(i 0).val, _⟩ (1 : Fin 3) * 128 + 128
    rw [e1]; omega
  | ⟨2, _⟩ =>
    show win0_4.index ⟨(i 0).val, _⟩ (2 : Fin 3) * 512 ≤ (i 2).val ∧ (i 2).val < win0_4.index ⟨(i 0).val, _⟩ (2 : Fin 3) * 512 + 512
    rw [e2]; omega

/-- THE RESULT ARRAY after the run is "result" of the two arguments. -/
theorem final (c : Dev nD) : (dats m 0 c).arrAt 4 cfg0.N
    = result (m ((c : Thread nD τ).loc main_arg0)) (m ((c : Thread nD τ).loc main_arg1)) :=
  (dats m 0 c).arrAt_eq_of_cover 4 _ (fun t _ => flushed_eq m c t) cover

/-- From any memory with zero counters every weakly fair execution of the kernel's program terminates, the result buffer
    at "result" of the two arguments and the arguments unchanged. -/
theorem run : θ_run defs (onTc (τ := τ) (main (F := Ideal))) ⟨m, fun _ => 0, ρ⟩ fun r => ∀ c : Dev nD,
      r.2.mem ((c : Thread nD τ).loc main_v9)
          = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Pooled

end
-- ==== Proof.RefRun.lean ====
/-
  The reference's run, read back.

  The reference program is a straight line of 35 host operations once its three outlined functions are read at their
  call sites: the running sum of the lengths (a constant, its broadcast, the windowed sum), the begin bounds, the
  positions 0 .. 4095, the two comparisons spread over [8, 128, 4096] and their conjunction, the mask as numbers, the
  batched product with the batch, the zero-protected lengths (a comparison, the constant 1 read through the selecting
  function's three operations), their conversion and spread over the channels, the quotient, and the replacement of
  exact zeros by -1 (a comparison, the constant -1 spread and selected).

  Every weakly fair execution of it terminates with the result buffer at that composed term of the two argument arrays
  ("value" below) and the arguments unchanged.
-/
import proofs.«157469_j29746943492489_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem
open Idealize.ShloMosaic.StableHlo

variable {F : FTy → Type} [FloatOps F]

/-- The reference's operations in order, the three calls read at their sites. -/
abbrev ops : List (HloOp τ sig (Elt F)) :=
  [ TRef.nullary main_call0.call0.c (constantI S_ 32 0#32),
    TRef.unary main_call0.call0.c main_call0.call0.v0 (broadcastInDim S_ ![] bcast_S_S_),
    TRef.binary (.of main_arg1 : TRef sig ⟨S8x128, .i32⟩) main_call0.call0.v0 main_call0.call0.v1
      (fun x v => Host.reduceWindow IntOp.addi ![1, 128] ![1, 1] ![0, 127] ![0, 0] x v reduceWindows_S8x128_S8x128_w1s1p0_0_w128s1p127_0 h_S_),
    binary main_v0 main_arg1 main_v1 (subi : (⟨S8x128, .i32⟩ : BufTy).Contents (Elt F) → (⟨S8x128, .i32⟩ : BufTy).Contents (Elt F) → (⟨S8x128, .i32⟩ : BufTy).Contents (Elt F)),
    nullary main_v2 (iotaInDim S4096 32 0),
    unary main_v2 main_v3 (broadcastInDim S1x1x4096 ![2] bcast_S4096_S1x1x4096_2 : (⟨S4096, .i32⟩ : BufTy).Contents (Elt F) → (⟨S1x1x4096, .i32⟩ : BufTy).Contents (Elt F)),
    unary main_v0 main_v4 (broadcastInDim S8x128x1 ![0, 1] bcast_S8x128_S8x128x1_0_1 : (⟨S8x128, .i32⟩ : BufTy).Contents (Elt F) → (⟨S8x128x1, .i32⟩ : BufTy).Contents (Elt F)),
    unary main_v3 main_v5 (broadcastInDim S8x128x4096 ![0, 1, 2] bcast_S1x1x4096_S8x128x4096_0_1_2 : (⟨S1x1x4096, .i32⟩ : BufTy).Contents (Elt F) → (⟨S8x128x4096, .i32⟩ : BufTy).Contents (Elt F)),
    unary main_v4 main_v6 (broadcastInDim S8x128x4096 ![0, 1, 2] bcast_S8x128x1_S8x128x4096_0_1_2 : (⟨S8x128x1, .i32⟩ : BufTy).Contents (Elt F) → (⟨S8x128x4096, .i32⟩ : BufTy).Contents (Elt F)),
    binary main_v5 main_v6 main_v7 (cmpi .slt : (⟨S8x128x4096, .i32⟩ : BufTy).Contents (Elt F) → (⟨S8x128x4096, .i32⟩ : BufTy).Contents (Elt F) → (⟨S8x128x4096, .i1⟩ : BufTy).Contents (Elt F)),
    unary main_v2 main_v8 (broadcastInDim S1x1x4096 ![2] bcast_S4096_S1x1x4096_2 : (⟨S4096, .i32⟩ : BufTy).Contents (Elt F) → (⟨S1x1x4096, .i32⟩ : BufTy).Contents (Elt F)),
    unary main_v1 main_v9 (broadcastInDim S8x128x1 ![0, 1] bcast_S8x128_S8x128x1_0_1 : (⟨S8x128, .i32⟩ : BufTy).Contents (Elt F) → (⟨S8x128x1, .i32⟩ : BufTy).Contents (Elt F)),
    unary main_v8 main_v10 (broadcastInDim S8x128x4096 ![0, 1, 2] bcast_S1x1x4096_S8x128x4096_0_1_2 : (⟨S1x1x4096, .i32⟩ : BufTy).Contents (Elt F) → (⟨S8x128x4096, .i32⟩ : BufTy).Contents (Elt F)),
    unary main_v9 main_v11 (broadcastInDim S8x128x4096 ![0, 1, 2] bcast_S8x128x1_S8x128x4096_0_1_2 : (⟨S8x128x1, .i32⟩ : BufTy).Contents (Elt F) → (⟨S8x128x4096, .i32⟩ : BufTy).Contents (Elt F)),
    binary main_v10 main_v11 main_v12 (cmpi .sge : (⟨S8x128x4096, .i32⟩ : BufTy).Contents (Elt F) → (⟨S8x128x4096, .i32⟩ : BufTy).Contents (Elt F) → (⟨S8x128x4096, .i1⟩ : BufTy).Contents (Elt F)),
    binary main_v7 main_v12 main_v13 (andi : (⟨S8x128x4096, .i1⟩ : BufTy).Contents (Elt F) → (⟨S8x128x4096, .i1⟩ : BufTy).Contents (Elt F) → (⟨S8x128x4096, .i1⟩ : BufTy).Contents (Elt F)),
    unary main_v13 main_v14 (uitofp .f32 : (⟨S8x128x4096, .i1⟩ : BufTy).Contents (Elt F) → (⟨S8x128x4096, .f32⟩ : BufTy).Contents (Elt F)),
    binary main_v14 main_arg0 main_v15 ((fun l r => Host.dotGeneral dot_S8x128x4096_S8x4096x512_S8x128x512_2_1_1_2_0_0 none l r) : (⟨S8x128x4096, .f32⟩ : BufTy).Contents (Elt F) → (⟨S8x4096x512, .f32⟩ : BufTy).Contents (Elt F) → (⟨S8x128x512, .f32⟩ : BufTy).Contents (Elt F)),
    nullary main_c (constantI S_ 32 0#32),
    unary main_c main_v16 (broadcastInDim S8x128 ![] bcast_S_S8x128 : (⟨S_, .i32⟩ : BufTy).Contents (Elt F) → (⟨S8x128, .i32⟩ : BufTy).Contents (Elt F)),
    binary main_arg1 main_v16 main_v17 (cmpi .eq : (⟨S8x128, .i32⟩ : BufTy).Contents (Elt F) → (⟨S8x128, .i32⟩ : BufTy).Contents (Elt F) → (⟨S8x128, .i1⟩ : BufTy).Contents (Elt F)),
    nullary main_c_0 (constantI S_ 32 1#32),
    TRef.unary (.of main_c_0 : TRef sig ⟨S_, .i32⟩) main_call1.v0 id,
    TRef.unary main_call1.v0 main_call1.v1 (broadcastInDim S8x128 ![] bcast_S_S8x128),
    TRef.ternary (.of main_v17 : TRef sig ⟨S8x128, .i1⟩) main_call1.v1 (.of main_arg1 : TRef sig ⟨S8x128, .i32⟩) main_call1.v2 select,
    unary main_v18 main_v19 (broadcastInDim S8x128x1 ![0, 1] bcast_S8x128_S8x128x1_0_1 : (⟨S8x128, .i32⟩ : BufTy).Contents (Elt F) → (⟨S8x128x1, .i32⟩ : BufTy).Contents (Elt F)),
    unary main_v19 main_v20 (sitofp .f32 : (⟨S8x128x1, .i32⟩ : BufTy).Contents (Elt F) → (⟨S8x128x1, .f32⟩ : BufTy).Contents (Elt F)),
    unary main_v20 main_v21 (broadcastInDim S8x128x512 ![0, 1, 2] bcast_S8x128x1_S8x128x512_0_1_2 : (⟨S8x128x1, .f32⟩ : BufTy).Contents (Elt F) → (⟨S8x128x512, .f32⟩ : BufTy).Contents (Elt F)),
    binary main_v15 main_v21 main_v22 (Host.divf : (⟨S8x128x512, .f32⟩ : BufTy).Contents (Elt F) → (⟨S8x128x512, .f32⟩ : BufTy).Contents (Elt F) → (⟨S8x128x512, .f32⟩ : BufTy).Contents (Elt F)),
    nullary main_cst (constant S_ .f32 0x00000000#32),
    unary main_cst main_v23 (broadcastInDim S8x128x512 ![] bcast_S_S8x128x512 : (⟨S_, .f32⟩ : BufTy).Contents (Elt F) → (⟨S8x128x512, .f32⟩ : BufTy).Contents (Elt F)),
    binary main_v22 main_v23 main_v24 (cmpf .une : (⟨S8x128x512, .f32⟩ : BufTy).Contents (Elt F) → (⟨S8x128x512, .f32⟩ : BufTy).Contents (Elt F) → (⟨S8x128x512, .i1⟩ : BufTy).Contents (Elt F)),
    nullary main_cst_1 (constant S_ .f32 0xBF800000#32),
    TRef.unary (.of main_cst_1 : TRef sig ⟨S_, .f32⟩) main_call2.v0 (broadcastInDim S8x128x512 ![] bcast_S_S8x128x512),
    TRef.ternary (.of main_v24 : TRef sig ⟨S8x128x512, .i1⟩) (.of main_v22 : TRef sig ⟨S8x128x512, .f32⟩) main_call2.v0 main_call2.v1 select ]

-- thirty-five binds re-associated under the chain
set_option maxRecDepth 2048 in
/-- The program is that straight line: the functions' bodies unfolded at their calls, sequencing re-associated. -/
theorem main_eq (c : Dev nD) : main (F := F) c = seq ops := by
  simp only [main, fn_cumsum.body, fn_cumsum_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., nullary_bufs_sub .., unary_bufs_sub ..,
    unary_bufs_sub .., unary_bufs_sub .., unary_bufs_sub .., binary_bufs_sub .., unary_bufs_sub .., unary_bufs_sub ..,
    unary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., unary_bufs_sub .., unary_bufs_sub .., binary_bufs_sub .., nullary_bufs_sub ..,
    unary_bufs_sub .., binary_bufs_sub .., nullary_bufs_sub .., unary_bufs_sub .., ternary_bufs_sub ..⟩

/-- The result as one term of the two arguments: the operations composed, each intermediate named. -/
def value (x : FVec F S8x4096x512 .f32) (len : IVec S8x128 32) : FVec F S8x128x512 .f32 :=
  let e : IVec S8x128 32 := Host.reduceWindow IntOp.addi ![1, 128] ![1, 1] ![0, 127] ![0, 0] len
    (broadcastInDim S_ ![] bcast_S_S_ (constantI S_ 32 0#32)) reduceWindows_S8x128_S8x128_w1s1p0_0_w128s1p127_0 h_S_
  let bg : IVec S8x128 32 := subi e len
  let pos : IVec S8x128x4096 32 := broadcastInDim S8x128x4096 ![0, 1, 2] bcast_S1x1x4096_S8x128x4096_0_1_2
    (broadcastInDim S1x1x4096 ![2] bcast_S4096_S1x1x4096_2 (iotaInDim S4096 32 0))
  let lt : IVec S8x128x4096 1 := cmpi .slt pos
    (broadcastInDim S8x128x4096 ![0, 1, 2] bcast_S8x128x1_S8x128x4096_0_1_2 (broadcastInDim S8x128x1 ![0, 1] bcast_S8x128_S8x128x1_0_1 e))
  let ge : IVec S8x128x4096 1 := cmpi .sge pos
    (broadcastInDim S8x128x4096 ![0, 1, 2] bcast_S8x128x1_S8x128x4096_0_1_2 (broadcastInDim S8x128x1 ![0, 1] bcast_S8x128_S8x128x1_0_1 bg))
  let w : FVec F S8x128x4096 .f32 := uitofp .f32 (andi lt ge)
  let sums : FVec F S8x128x512 .f32 := Host.dotGeneral dot_S8x128x4096_S8x4096x512_S8x128x512_2_1_1_2_0_0 none w x
  let nz : IVec S8x128 32 := select (cmpi .eq len (broadcastInDim S8x128 ![] bcast_S_S8x128 (constantI S_ 32 0#32)))
    (broadcastInDim S8x128 ![] bcast_S_S8x128 (id (constantI S_ 32 1#32))) len
  let den : FVec F S8x128x512 .f32 := broadcastInDim S8x128x512 ![0, 1, 2] bcast_S8x128x1_S8x128x512_0_1_2
    (sitofp .f32 (broadcastInDim S8x128x1 ![0, 1] bcast_S8x128_S8x128x1_0_1 nz))
  let q : FVec F S8x128x512 .f32 := Host.divf sums den
  select (cmpf .une q (broadcastInDim S8x128x512 ![] bcast_S_S8x128x512 (constant S_ .f32 0x00000000#32))) q
    (broadcastInDim S8x128x512 ![] bcast_S_S8x128x512 (constant S_ .f32 0xBF800000#32))

/-- What the result buffer holds after the operations, from any contents: "value" of the two arguments' contents. -/
theorem out_eq (V : Valuation τ sig (Elt F)) :
    after ops V (main_v25 : DevRef τ sig) = value (V (main_arg0 : DevRef τ sig)) (V (main_arg1 : DevRef τ sig)) := by
  after_results_simp
  simp only [TRef.toBuf, TRef.ofBuf, cast_eq]
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-- From any memory with zero counters every weakly fair execution of the reference terminates, the result buffer at
    "value" of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.LibBatchedDot.lean ====
/-
  A batched matrix product read at an entry, on the extended reals.

  For the dimension numbers of a [B, M, K] by [B, K, N] product with one batch axis (the leading axis of both
  operands), the left operand's last axis contracted with the right operand's middle axis, and the result [B, M, N]
  (batch [0] x [0], contracting [2] x [1], free axes [1] and [2]): the sum over the contraction index of the operands'
  products at output entry (b, p, j) is the sum over k of l (b, p, k) * r (b, k, j). The contraction index is its one
  coordinate k; the left operand is read at batch b, row p, column k; the right at batch b, row k, column j. From it
  the host's dot_general at (b, p, j). A printed program's own record of these dimension numbers is
  batched B M K N wf at its literal sizes, by rfl.
-/
import Idealize.ShloMosaic.Lib.ValueIdx
import Idealize.ShloMosaic.PureOps.Ideal.Laws

noncomputable section

open scoped BigOperators

namespace Cert.Lib.BatchedDot

open Idealize.ShloMosaic Idealize.ShloMosaic.ValueIdx

variable {B M K N : ℕ} {φ₁ φ₂ : FTy}

/-- The dimension numbers: batch axes [0] x [0], contracting axes [2] x [1], free axes [1] and [2]. -/
def batched (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable (wf : DotDims.WF ⟨3, ![B, M, K]⟩ ⟨3, ![B, K, N]⟩ ⟨3, ![B, M, N]⟩ [2] [1] [1] [2] [0] [0])

/-- Left operand, axis 0: the output's batch coordinate. -/
theorem lhs0 (i : (⟨3, ![B, M, N]⟩ : Shape).Idx) (q : (batched B M K N wf).contr.Idx) :
    ((batched B M K N wf).lhsIdx i q 0).val = (i 0).val := by
  unfold DotDims.lhsIdx
  rw [dif_pos (show (0 : Fin (⟨3, ![B, M, K]⟩ : Shape).rank) ∈ (batched B M K N wf).lhsBatch by simp [batched])]
  rfl

/-- Left operand, axis 1: the output's row. -/
theorem lhs1 (i : (⟨3, ![B, M, N]⟩ : Shape).Idx) (q : (batched B M K N wf).contr.Idx) :
    ((batched B M K N wf).lhsIdx i q 1).val = (i 1).val := by
  unfold DotDims.lhsIdx
  rw [dif_neg (show ¬(1 : Fin (⟨3, ![B, M, K]⟩ : Shape).rank) ∈ (batched B M K N wf).lhsBatch by simp [batched]),
    dif_pos (show (1 : Fin (⟨3, ![B, M, K]⟩ : Shape).rank) ∈ (batched B M K N wf).lhsNonContracting by simp [batched])]
  rfl

/-- Right operand, axis 0: the output's batch coordinate. -/
theorem rhs0 (i : (⟨3, ![B, M, N]⟩ : Shape).Idx) (q : (batched B M K N wf).contr.Idx) :
    ((batched B M K N wf).rhsIdx i q 0).val = (i 0).val := by
  unfold DotDims.rhsIdx
  rw [dif_pos (show (0 : Fin (⟨3, ![B, K, N]⟩ : Shape).rank) ∈ (batched B M K N wf).rhsBatch by simp [batched])]
  rfl

/-- Right operand, axis 2: the output's column. -/
theorem rhs2 (i : (⟨3, ![B, M, N]⟩ : Shape).Idx) (q : (batched B M K N wf).contr.Idx) :
    ((batched B M K N wf).rhsIdx i q 2).val = (i 2).val := by
  unfold DotDims.rhsIdx
  rw [dif_neg (show ¬(2 : Fin (⟨3, ![B, K, N]⟩ : Shape).rank) ∈ (batched B M K N wf).rhsBatch by simp [batched]),
    dif_pos (show (2 : Fin (⟨3, ![B, K, N]⟩ : Shape).rank) ∈ (batched B M K N wf).rhsNonContracting by simp [batched])]
  rfl

/-- The left operand's index at output (b, p, j) and contraction coordinate k is (b, p, k). -/
theorem lhsIdx_batched (b : Fin B) (p : Fin M) (j : Fin N) (k : Fin K) :
    (batched B M K N wf).lhsIdx (ix3 b p j) ((contrEquiv1 (batched B M K N wf) K rfl rfl).symm k) = ix3 b p k := by
  have hk := contrEquiv1_symm_val (batched B M K N wf) K rfl rfl k
  exact funext fun a => Fin.ext (by
    match a with
    | ⟨0, _⟩ => exact lhs0 wf _ _
    | ⟨1, _⟩ => exact lhs1 wf _ _
    | ⟨2, _⟩ => exact ((batched B M K N wf).lhsIdx_val_of_single rfl _ _).trans hk)

/-- The right operand's index at output (b, p, j) and contraction coordinate k is (b, k, j). -/
theorem rhsIdx_batched (b : Fin B) (p : Fin M) (j : Fin N) (k : Fin K) :
    (batched B M K N wf).rhsIdx (ix3 b p j) ((contrEquiv1 (batched B M K N wf) K rfl rfl).symm k) = ix3 b k j := by
  have hk := contrEquiv1_symm_val (batched B M K N wf) K rfl rfl k
  exact funext fun a => Fin.ext (by
    match a with
    | ⟨0, _⟩ => exact rhs0 wf _ _
    | ⟨1, _⟩ => exact ((batched B M K N wf).rhsIdx_val_of_single rfl _ _).trans hk
    | ⟨2, _⟩ => exact rhs2 wf _ _)

/-- The contraction's sum at output (b, p, j) is the sum over the contracted coordinate. -/
theorem sum_batched (l : (⟨3, ![B, M, K]⟩ : Shape).Idx → EReal) (r : (⟨3, ![B, K, N]⟩ : Shape).Idx → EReal)
    (b : Fin B) (p : Fin M) (j : Fin N) :
    ∑ q : (batched B M K N wf).contr.Idx,
        l ((batched B M K N wf).lhsIdx (ix3 b p j) q) * r ((batched B M K N wf).rhsIdx (ix3 b p j) q)
      = ∑ k : Fin K, l (ix3 b p k) * r (ix3 b k j) := by
  rw [← Equiv.sum_comp (contrEquiv1 (batched B M K N wf) K rfl rfl).symm]
  refine Finset.sum_congr rfl fun k _ => ?_
  rw [lhsIdx_batched, rhsIdx_batched]

/-- The host's dot_general with these dimension numbers at entry (b, p, j), whatever its schedule. -/
theorem dotGeneral_apply (prec : Option ContractPrecision) (sched : HostSchedule)
    (l : FVec Ideal ⟨3, ![B, M, K]⟩ φ₁) (r : FVec Ideal ⟨3, ![B, K, N]⟩ φ₂) (b : Fin B) (p : Fin M) (j : Fin N) :
    FloatOps.dotGeneral (batched B M K N wf) prec sched l r (ix3 b p j) = ∑ k : Fin K, l (ix3 b p k) * r (ix3 b k j) := by
  rw [Ideal.dotGeneral_apply]
  exact sum_batched wf l r b p j

end Cert.Lib.BatchedDot

end
-- ==== Proof.RefValue.lean ====
/-
  The reference's result, read at one entry: it is "result" of the two arguments.

  At entry (b, p, d) of the composed term:

  * the positions array, the vector 0 .. 4095 placed on the last axis and spread over [8, 128, 4096], reads the word of
    s at (b, p, s); the ends and begins, given a unit trailing axis and spread along the positions, read their (b, p)
    entry; so the mask at (b, p, s), converted as an unsigned integer, is the weight of position s for patch p of
    row b (its two comparisons in the other order than the specification's);
  * the batched product at (b, p, d) is the sum over the positions s of mask (b, p, s) * batch (b, s, d);
  * the divisor, spread along the channels, reads the zero-protected length of patch (b, p) as a number;
  * the two scalar constants spread over the result read themselves, and the "unordered not equal" selection replaces
    an exact zero by -1.
-/
import proofs.«157469_j29746943492489_1_alg».proof.Proof.RefRun
import proofs.«157469_j29746943492489_1_alg».proof.Proof.PatchMean
import proofs.«157469_j29746943492489_1_alg».proof.Proof.LibBatchedDot
import proofs.«157469_j29746943492489_1_alg».proof.Proof.LibHostBroadcast
import Idealize.ShloMosaic.Lib.ValueIdx

noncomputable section

open scoped BigOperators

namespace Cert.ReferenceIdeal.Pooled

open Cert.ReferenceIdeal Cert.ReferenceIdeal.Gen Idealize.ShloMosaic Idealize.ShloMosaic.ValueIdx
open Idealize.ShloMosaic.ValueHostBroadcast Cert.PatchMean Cert.ReferenceIdeal.HandRun

/-- The mask at (b, p, s): the weight of position s for the patch with begin bg (b, p) and end e (b, p). -/
theorem mask_apply (e bg : IVec S8x128 32) (h1 : S1x1x4096.BroadcastsInDim S8x128x4096 (![0, 1, 2] : Fin 3 → Fin 3))
    (h2 : S4096.BroadcastsInDim S1x1x4096 (![2] : Fin 1 → Fin 3))
    (h3 : S8x128x1.BroadcastsInDim S8x128x4096 (![0, 1, 2] : Fin 3 → Fin 3))
    (h4 : S8x128.BroadcastsInDim S8x128x1 (![0, 1] : Fin 2 → Fin 3)) (b : Fin 8) (p : Fin 128) (s : Fin 4096) :
    (uitofp .f32 (andi
        (cmpi .slt (broadcastInDim S8x128x4096 ![0, 1, 2] h1 (broadcastInDim S1x1x4096 ![2] h2 (iotaInDim S4096 32 0)))
          (broadcastInDim S8x128x4096 ![0, 1, 2] h3 (broadcastInDim S8x128x1 ![0, 1] h4 e)))
        (cmpi .sge (broadcastInDim S8x128x4096 ![0, 1, 2] h1 (broadcastInDim S1x1x4096 ![2] h2 (iotaInDim S4096 32 0)))
          (broadcastInDim S8x128x4096 ![0, 1, 2] h3 (broadcastInDim S8x128x1 ![0, 1] h4 bg))))
      : FVec Ideal S8x128x4096 .f32) (ix3 b p s)
      = weight (bg (ix2 b p)) (e (ix2 b p)) s := by
  show FloatOps.uitofp (F := Ideal) .f32 (IntOp.andi
      (IntOp.cmpi .slt
        (broadcastInDim S8x128x4096 ![0, 1, 2] h1 (broadcastInDim S1x1x4096 ![2] h2 (iotaInDim S4096 32 0)) (ix3 b p s))
        (broadcastInDim S8x128x4096 ![0, 1, 2] h3 (broadcastInDim S8x128x1 ![0, 1] h4 e) (ix3 b p s)))
      (IntOp.cmpi .sge
        (broadcastInDim S8x128x4096 ![0, 1, 2] h1 (broadcastInDim S1x1x4096 ![2] h2 (iotaInDim S4096 32 0)) (ix3 b p s))
        (broadcastInDim S8x128x4096 ![0, 1, 2] h3 (broadcastInDim S8x128x1 ![0, 1] h4 bg) (ix3 b p s))))
    = _
  rw [broadcastInDim_11c_abc_apply, broadcastInDim_c_11c_apply, broadcastInDim_ab1_abc_apply, broadcastInDim_ab_ab1_apply,
    broadcastInDim_ab1_abc_apply, broadcastInDim_ab_ab1_apply, uitofp_bit]
  exact congrArg (fun w : BitVec 1 => (((w.toNat : ℝ) : EReal))) (inside_comm (bg (ix2 b p)) (e (ix2 b p)) s)

/-- The divisor at (b, p, d): the zero-protected length of patch (b, p), as a number. -/
theorem den_apply (len : IVec S8x128 32) (h0 : S_.BroadcastsInDim S8x128 (![] : Fin 0 → Fin 2))
    (h4 : S8x128.BroadcastsInDim S8x128x1 (![0, 1] : Fin 2 → Fin 3))
    (h5 : S8x128x1.BroadcastsInDim S8x128x512 (![0, 1, 2] : Fin 3 → Fin 3)) (b : Fin 8) (p : Fin 128) (d : Fin 512) :
    (broadcastInDim S8x128x512 ![0, 1, 2] h5 (sitofp .f32 (broadcastInDim S8x128x1 ![0, 1] h4
        (select (cmpi .eq len (broadcastInDim S8x128 ![] h0 (constantI S_ 32 0#32)))
          (broadcastInDim S8x128 ![] h0 (id (constantI S_ 32 1#32))) len)))
      : FVec Ideal S8x128x512 .f32) (ix3 b p d)
      = divisor (len (ix2 b p)) := by
  rw [broadcastInDim_ab1_abc_apply]
  show FloatOps.sitofp (F := Ideal) .f32 (broadcastInDim S8x128x1 ![0, 1] h4
      (select (cmpi .eq len (broadcastInDim S8x128 ![] h0 (constantI S_ 32 0#32)))
        (broadcastInDim S8x128 ![] h0 (id (constantI S_ 32 1#32))) len) (ix3 b p (0 : Fin 1))) = _
  rw [broadcastInDim_ab_ab1_apply]
  rfl

/-- The batched product at (b, p, d): the sum over the positions. -/
theorem sums_apply (w : FVec Ideal S8x128x4096 .f32) (x : FVec Ideal S8x4096x512 .f32) (b : Fin 8) (p : Fin 128) (d : Fin 512) :
    Host.dotGeneral dot_S8x128x4096_S8x4096x512_S8x128x512_2_1_1_2_0_0 none w x (ix3 b p d)
      = ∑ s : Fin 4096, w (ix3 b p s) * x (ix3 b s d) :=
  Cert.Lib.BatchedDot.dotGeneral_apply dot_S8x128x4096_S8x4096x512_S8x128x512_2_1_1_2_0_0_wf none .single w x b p d

/-- The final expression over ANY mask w, batch x and divisor array dn, read at (b, p, d): if row (b, p) of the mask is
    the weights of a patch [lo, hi), column (b, d) of the batch is col and the divisor at (b, p, d) is den, the entry is
    the pooled entry of those. -/
theorem stored_apply (w : FVec Ideal S8x128x4096 .f32) (x : FVec Ideal S8x4096x512 .f32) (dn : FVec Ideal S8x128x512 .f32)
    (h0 : S_.BroadcastsInDim S8x128x512 (![] : Fin 0 → Fin 3)) (b : Fin 8) (p : Fin 128) (d : Fin 512)
    (lo hi : BitVec 32) (den : EReal) (col : Fin 4096 → EReal)
    (hw : ∀ s : Fin 4096, w (ix3 b p s) = weight lo hi s) (hx : ∀ s : Fin 4096, x (ix3 b s d) = col s)
    (hd : dn (ix3 b p d) = den) :
    select
        (cmpf .une (Host.divf (Host.dotGeneral dot_S8x128x4096_S8x4096x512_S8x128x512_2_1_1_2_0_0 none w x) dn)
          (broadcastInDim S8x128x512 ![] h0 (constant (F := Ideal) S_ .f32 0x00000000#32)))
        (Host.divf (Host.dotGeneral dot_S8x128x4096_S8x4096x512_S8x128x512_2_1_1_2_0_0 none w x) dn)
        (broadcastInDim S8x128x512 ![] h0 (constant (F := Ideal) S_ .f32 0xBF800000#32))
        (ix3 b p d)
      = entry lo hi den col := by
  show Scalar.select
      (Ideal.cmp .une
        (Ideal.div (Host.dotGeneral dot_S8x128x4096_S8x4096x512_S8x128x512_2_1_1_2_0_0 none w x (ix3 b p d)) (dn (ix3 b p d)))
        (broadcastInDim S8x128x512 ![] h0 (constant (F := Ideal) S_ .f32 0x00000000#32) (ix3 b p d)))
      (Ideal.div (Host.dotGeneral dot_S8x128x4096_S8x4096x512_S8x128x512_2_1_1_2_0_0 none w x (ix3 b p d)) (dn (ix3 b p d)))
      (broadcastInDim S8x128x512 ![] h0 (constant (F := Ideal) S_ .f32 0xBF800000#32) (ix3 b p d)) = _
  have hs : (∑ s : Fin 4096, w (ix3 b p s) * x (ix3 b s d)) = ∑ s : Fin 4096, weight lo hi s * col s :=
    Finset.sum_congr rfl fun s _ => by rw [hw s, hx s]
  rw [broadcastInDim_scalar_apply, broadcastInDim_scalar_apply, sums_apply, hs, hd]
  exact select_ne .une (Or.inr rfl) _

/-- THE REFERENCE'S RESULT is "result" of the two arguments. -/
theorem value_eq (x : FVec Ideal S8x4096x512 .f32) (len : IVec S8x128 32) : value (F := Ideal) x len = result x len := by
  funext j
  obtain ⟨b, p, d, rfl⟩ : ∃ (b : Fin 8) (p : Fin 128) (d : Fin 512), j = ix3 b p d := ⟨j 0, j 1, j 2, eq_ix3 j⟩
  rw [result_ix3]
  unfold value pooled
  dsimp only
  exact stored_apply _ _ _ _ b p d _ _ _ _ (fun s => mask_apply _ _ _ _ _ _ b p s) (fun _ => rfl)
    (den_apply len _ _ _ b p d)

end Cert.ReferenceIdeal.Pooled

end
-- ==== Proof.lean ====
/-
  Mean pooling over ragged patches: a kernel that pools one batch row per grid point against a reference that pools the
  whole batch with one batched product, equal on the extended reals.

  THE FUNCTION. For a batch x[b, s, d] (8 rows, 4096 positions, 512 channels) and patch lengths len[b, p] (128 patches
  per row), patch p of row b covers the positions begin <= s < end with end the running sum of the row's lengths up to
  p and begin = end - len[b, p]. The result at (b, p, d) is the sum over the patch's positions of x[b, s, d], divided by
  the patch's length (by 1 when the patch is empty), with an exact zero replaced by -1 ("PatchMean.result").

  THE KERNEL'S SIDE. The host computes the ends, the begins and the divisors as [8, 128, 1] columns; at grid point t the
  body compares the positions 0 .. 4095 with row t's begin and end columns, multiplies the resulting [128, 4096] mask of
  zeros and ones with row t's [4096, 512] slab into a zero accumulator, divides by row t's divisor column and replaces
  exact zeros; block t of the result array is what point t wrote, and the eight blocks tile the array
  ("KernelIdeal.Pooled.run").

  THE REFERENCE'S SIDE. One straight line of host operations: the same ends and begins, the mask over [8, 128, 4096],
  one product with batch axis b contracting the positions, the same divisor spread over the channels, the same
  replacement ("ReferenceIdeal.HandRun.run", "ReferenceIdeal.Pooled.value_eq").

  WHY THEY AGREE. Entry by entry both are the same sum over the positions of weight * x, the same quotient and the same
  selection; the differences are of spelling only (the mask bit converted through a zero-extension and a signed
  conversion, or directly as unsigned; the two comparisons in either order; the ordered or unordered "not equal"; a change
  of float format, which is the identity on extended reals). No law that could fail at an infinity is used, so the
  precondition on the data is never opened.

  The three frames: the kernel's two programs by their generated frame certificates; the reference's by its run with the
  result dropped. The idealization rewrote nothing, so nothing is owed for it.
-/
import proofs.«157469_j29746943492489_1_alg».proof.Defs
import proofs.«157469_j29746943492489_1_alg».proof.Proof.Gen.Kernel
import proofs.«157469_j29746943492489_1_alg».proof.Proof.Gen.Kernel.Frame
import proofs.«157469_j29746943492489_1_alg».proof.Proof.Gen.KernelIdeal
import proofs.«157469_j29746943492489_1_alg».proof.Proof.Gen.KernelIdeal.Frame
import proofs.«157469_j29746943492489_1_alg».proof.Proof.Gen.KernelIdeal.Value
import proofs.«157469_j29746943492489_1_alg».proof.Proof.Gen.ReferenceIdeal
import proofs.«157469_j29746943492489_1_alg».proof.Proof.Gen.Pre_finite_inputs
import proofs.«157469_j29746943492489_1_alg».proof.Proof.KernelValue
import proofs.«157469_j29746943492489_1_alg».proof.Proof.RefValue
import Idealize.ShloMosaic.Adequacy
import Idealize.ShloMosaic.Init

noncomputable section

namespace Cert.Proof

open Idealize.ShloMosaic Idealize.SL.Sem

/-- The kernel's program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the batch and the lengths both programs end with the pooled array of those arguments. -/
theorem algebraic : Cert.algebraic_KernelIdeal_ReferenceIdeal := by
  intro m ρ m' ρ' _ hagree
  refine ⟨_, Cert.KernelIdeal.Pooled.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.Pooled.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
